-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2 : Shape := ⟨2, ![64, 2]⟩
abbrev S64 : Shape := ⟨1, ![64]⟩
abbrev S64x60x2 : Shape := ⟨3, ![64, 60, 2]⟩
abbrev S64x1x512x512 : Shape := ⟨4, ![64, 1, 512, 512]⟩
abbrev S_ : Shape := ⟨0, ![]⟩

class Facts : Prop where
  bcast_S_S64x2 : S_.BroadcastsInDim S64x2 (![] : Fin 0 → Fin S64x2.rank)
  reducesTo_S64x2_S_d0_1 : S64x2.ReducesTo [0, 1] S_
  h_S_ : 0 < S_.numel
  bcast_S_S64x60x2 : S_.BroadcastsInDim S64x60x2 (![] : Fin 0 → Fin S64x60x2.rank)
  reducesTo_S64x60x2_S_d0_1_2 : S64x60x2.ReducesTo [0, 1, 2] S_
  bcast_S_S64x1x512x512 : S_.BroadcastsInDim S64x1x512x512 (![] : Fin 0 → Fin S64x1x512x512.rank)
  reducesTo_S64x1x512x512_S_d0_1_2_3 : S64x1x512x512.ReducesTo [0, 1, 2, 3] S_

variable [Facts]

def fn_part1 {F : FTy → Type} [FloatOps F] (main_arg5 : FVec F S64x1x512x512 .f32) (main_v13 : IVec S_ 1) (main_v16 : IVec S64x1x512x512 1) : IVec S_ 1 :=
  let main_c_5 : IVec S_ 1 := constantI S_ 1 1#1
  let main_v17 : IVec S_ 1 := (fun x v => Host.reduce IntOp.andi x v reducesTo_S64x1x512x512_S_d0_1_2_3 h_S_) main_v16 main_c_5
  let main_v18 : IVec S_ 1 := andi main_v13 main_v17
  let main_v19 : FVec F S64x1x512x512 .f32 := Host.absf main_arg5
  let main_cst_6 : FVec F S_ .f32 := constant S_ .f32 0x7F800000#32
  let main_v20 : FVec F S64x1x512x512 .f32 := broadcastInDim S64x1x512x512 ![] bcast_S_S64x1x512x512 main_cst_6
  let main_v21 : IVec S64x1x512x512 1 := cmpf .olt main_v19 main_v20
  let main_c_7 : IVec S_ 1 := constantI S_ 1 1#1
  let main_v22 : IVec S_ 1 := (fun x v => Host.reduce IntOp.andi x v reducesTo_S64x1x512x512_S_d0_1_2_3 h_S_) main_v21 main_c_7
  let main_v23 : IVec S_ 1 := andi main_v18 main_v22
  main_v23

def fn {F : FTy → Type} [FloatOps F] (main_arg0 : FVec F S64x2 .f32) (main_arg1 : IVec S64 32) (main_arg2 : FVec F S64x60x2 .f32) (main_arg3 : FVec F S64x60x2 .f32) (main_arg4 : FVec F S64x1x512x512 .f32) (main_arg5 : FVec F S64x1x512x512 .f32) : IVec S_ 1 :=
  let main_v0 : FVec F S64x2 .f32 := Host.absf main_arg0
  let main_cst : FVec F S_ .f32 := constant S_ .f32 0x7F800000#32
  let main_v1 : FVec F S64x2 .f32 := broadcastInDim S64x2 ![] bcast_S_S64x2 main_cst
  let main_v2 : IVec S64x2 1 := cmpf .olt main_v0 main_v1
  let main_c : IVec S_ 1 := constantI S_ 1 1#1
  let main_v3 : IVec S_ 1 := (fun x v => Host.reduce IntOp.andi x v reducesTo_S64x2_S_d0_1 h_S_) main_v2 main_c
  let main_v4 : FVec F S64x60x2 .f32 := Host.absf main_arg2
  let main_cst_0 : FVec F S_ .f32 := constant S_ .f32 0x7F800000#32
  let main_v5 : FVec F S64x60x2 .f32 := broadcastInDim S64x60x2 ![] bcast_S_S64x60x2 main_cst_0
  let main_v6 : IVec S64x60x2 1 := cmpf .olt main_v4 main_v5
  let main_c_1 : IVec S_ 1 := constantI S_ 1 1#1
  let main_v7 : IVec S_ 1 := (fun x v => Host.reduce IntOp.andi x v reducesTo_S64x60x2_S_d0_1_2 h_S_) main_v6 main_c_1
  let main_v8 : IVec S_ 1 := andi main_v3 main_v7
  let main_v9 : FVec F S64x60x2 .f32 := Host.absf main_arg3
  let main_cst_2 : FVec F S_ .f32 := constant S_ .f32 0x7F800000#32
  let main_v10 : FVec F S64x60x2 .f32 := broadcastInDim S64x60x2 ![] bcast_S_S64x60x2 main_cst_2
  let main_v11 : IVec S64x60x2 1 := cmpf .olt main_v9 main_v10
  let main_c_3 : IVec S_ 1 := constantI S_ 1 1#1
  let main_v12 : IVec S_ 1 := (fun x v => Host.reduce IntOp.andi x v reducesTo_S64x60x2_S_d0_1_2 h_S_) main_v11 main_c_3
  let main_v13 : IVec S_ 1 := andi main_v8 main_v12
  let main_v14 : FVec F S64x1x512x512 .f32 := Host.absf main_arg4
  let main_cst_4 : FVec F S_ .f32 := constant S_ .f32 0x7F800000#32
  let main_v15 : FVec F S64x1x512x512 .f32 := broadcastInDim S64x1x512x512 ![] bcast_S_S64x1x512x512 main_cst_4
  let main_v16 : IVec S64x1x512x512 1 := cmpf .olt main_v14 main_v15
  fn_part1 (F := F) main_arg5 main_v13 main_v16
-- ==== Kernel.lean ====
abbrev S64x2 : Shape := ⟨2, ![64, 2]⟩
abbrev S64 : Shape := ⟨1, ![64]⟩
abbrev S64x60x2 : Shape := ⟨3, ![64, 60, 2]⟩
abbrev S64x1x512x512 : Shape := ⟨4, ![64, 1, 512, 512]⟩
abbrev S_ : Shape := ⟨0, ![]⟩
abbrev S64x1 : Shape := ⟨2, ![64, 1]⟩
abbrev S64x1x1 : Shape := ⟨3, ![64, 1, 1]⟩
abbrev S1 : Shape := ⟨1, ![1]⟩
abbrev S1x1x1 : Shape := ⟨3, ![1, 1, 1]⟩
abbrev S64x512x512 : Shape := ⟨3, ![64, 512, 512]⟩
abbrev S1x1 : Shape := ⟨2, ![1, 1]⟩
abbrev S4x512x512 : Shape := ⟨3, ![4, 512, 512]⟩
abbrev S1x4x512x512 : Shape := ⟨4, ![1, 4, 512, 512]⟩
abbrev S1x1x1x1 : Shape := ⟨4, ![1, 1, 1, 1]⟩
abbrev S64x60x1 : Shape := ⟨3, ![64, 60, 1]⟩
abbrev S64x60 : Shape := ⟨2, ![64, 60]⟩

abbrev nBuf : Space → Nat
  | .hbm => 83
  | .vmem => 5
  | .smem => 0
  | _ => 0

abbrev bufTy : (tb : Table) → Fin (tcTables nBuf tb) → BufTy
  | .hbm, ⟨0, _⟩ => ⟨S64x2, .f32⟩
  | .hbm, ⟨1, _⟩ => ⟨S64, .i32⟩
  | .hbm, ⟨2, _⟩ => ⟨S64x60x2, .f32⟩
  | .hbm, ⟨3, _⟩ => ⟨S64x60x2, .f32⟩
  | .hbm, ⟨4, _⟩ => ⟨S64x1x512x512, .f32⟩
  | .hbm, ⟨5, _⟩ => ⟨S64x1x512x512, .f32⟩
  | .hbm, ⟨6, _⟩ => ⟨S_, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64x1, .f32⟩
  | .hbm, ⟨12, _⟩ => ⟨S64x2, .f32⟩
  | .hbm, ⟨13, _⟩ => ⟨S64x2, .f32⟩
  | .hbm, ⟨14, _⟩ => ⟨S64x2, .f32⟩
  | .hbm, ⟨15, _⟩ => ⟨S_, .f32⟩
  | .hbm, ⟨16, _⟩ => ⟨S64, .f32⟩
  | .hbm, ⟨17, _⟩ => ⟨S64x1, .f32⟩
  | .hbm, ⟨18, _⟩ => ⟨S64x1, .f32⟩
  | .hbm, ⟨19, _⟩ => ⟨S64x2, .f32⟩
  | .hbm, ⟨20, _⟩ => ⟨S64x2, .f32⟩
  | .hbm, ⟨21, _⟩ => ⟨S64x1, .i32⟩
  | .hbm, ⟨22, _⟩ => ⟨S_, .i32⟩
  | .hbm, ⟨23, _⟩ => ⟨S64x1, .i32⟩
  | .hbm, ⟨24, _⟩ => ⟨S64x1, .i1⟩
  | .hbm, ⟨25, _⟩ => ⟨S_, .i32⟩
  | .hbm, ⟨26, _⟩ => ⟨S64x1, .i32⟩
  | .hbm, ⟨27, _⟩ => ⟨S64x1, .i32⟩
  | .hbm, ⟨28, _⟩ => ⟨S64x1, .i32⟩
  | .hbm, ⟨29, _⟩ => ⟨S64x1x1, .i32⟩
  | .hbm, ⟨30, _⟩ => ⟨S1, .i32⟩
  | .hbm, ⟨31, _⟩ => ⟨S_, .i32⟩
  | .hbm, ⟨32, _⟩ => ⟨S64x1x1, .i32⟩
  | .hbm, ⟨33, _⟩ => ⟨S64x1x1, .i1⟩
  | .hbm, ⟨34, _⟩ => ⟨S1x1x1, .i32⟩
  | .hbm, ⟨35, _⟩ => ⟨S64x1x1, .i32⟩
  | .hbm, ⟨36, _⟩ => ⟨S64x1x1, .i1⟩
  | .hbm, ⟨37, _⟩ => ⟨S64x1x1, .i1⟩
  | .hbm, ⟨38, _⟩ => ⟨S_, .i1⟩
  | .hbm, ⟨39, _⟩ => ⟨S64x1, .i1⟩
  | .hbm, ⟨40, _⟩ => ⟨S64x1, .f32⟩
  | .hbm, ⟨41, _⟩ => ⟨S_, .f32⟩
  | .hbm, ⟨42, _⟩ => ⟨S64x1, .f32⟩
  | .hbm, ⟨43, _⟩ => ⟨S64x1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S64x512x512, .f32⟩
  | .hbm, ⟨50, _⟩ => ⟨S64x512x512, .f32⟩
  | .hbm, ⟨51, _⟩ => ⟨S1x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S64x60x2, .f32⟩
  | .hbm, ⟨56, _⟩ => ⟨S64x60x2, .f32⟩
  | .hbm, ⟨57, _⟩ => ⟨S64x60x1, .f32⟩
  | .hbm, ⟨58, _⟩ => ⟨S64x60, .f32⟩
  | .hbm, ⟨59, _⟩ => ⟨S64x60x1, .f32⟩
  | .hbm, ⟨60, _⟩ => ⟨S64x60, .f32⟩
  | .hbm, ⟨61, _⟩ => ⟨S64x60, .f32⟩
  | .hbm, ⟨62, _⟩ => ⟨S_, .f32⟩
  | .hbm, ⟨63, _⟩ => ⟨S64x60, .f32⟩
  | .hbm, ⟨64, _⟩ => ⟨S64x60, .f32⟩
  | .hbm, ⟨65, _⟩ => ⟨S64x60, .f32⟩
  | .hbm, ⟨66, _⟩ => ⟨S64x60, .f32⟩
  | .hbm, ⟨67, _⟩ => ⟨S_, .f32⟩
  | .hbm, ⟨68, _⟩ => ⟨S64x60, .f32⟩
  | .hbm, ⟨69, _⟩ => ⟨S64x60, .i1⟩
  | .hbm, ⟨70, _⟩ => ⟨S64x60, .f32⟩
  | .hbm, ⟨71, _⟩ => ⟨S_, .f32⟩
  | .hbm, ⟨72, _⟩ => ⟨S64x60, .f32⟩
  | .hbm, ⟨73, _⟩ => ⟨S64x60, .f32⟩
  | .hbm, ⟨74, _⟩ => ⟨S64x60, .f32⟩
  | .hbm, ⟨75, _⟩ => ⟨S_, .f32⟩
  | .hbm, ⟨76, _⟩ => ⟨S64x60, .f32⟩
  | .hbm, ⟨77, _⟩ => ⟨S64x60, .f32⟩
  | .hbm, ⟨78, _⟩ => ⟨S64x60, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .local _ .vmem, ⟨0, _⟩ => ⟨S4x512x512, .f32⟩
  | .local _ .vmem, ⟨1, _⟩ => ⟨S4x512x512, .f32⟩
  | .local _ .vmem, ⟨2, _⟩ => ⟨S4x512x512, .f32⟩
  | .local _ .vmem, ⟨3, _⟩ => ⟨S4x512x512, .f32⟩
  | .local _ .vmem, ⟨4, _⟩ => ⟨S1x1, .f32⟩
  | _, _ => ⟨S64x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v0 : Ref sig .tc := ⟨.hbm, 20, rfl⟩
abbrev main_v1 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v2 : Ref sig .tc := ⟨.hbm, 43, rfl⟩
abbrev main_cst : Ref sig .tc := ⟨.hbm, 44, rfl⟩
abbrev main_v3 : Ref sig .tc := ⟨.hbm, 45, rfl⟩
abbrev main_cst_0 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_cst_1 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_cst_2 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_cst_3 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_cst_4 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_cst_6 : Ref sig .tc := ⟨.hbm, 79, rfl⟩
abbrev main_v31 : Ref sig .tc := ⟨.hbm, 80, rfl⟩
abbrev main_cst_7 : Ref sig .tc := ⟨.hbm, 81, rfl⟩
abbrev main_v32 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  reducesTo_S64x2_S64_d1 : S64x2.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  bcast_S_S64x1 : S_.BroadcastsInDim S64x1 (![] : Fin 0 → Fin S64x1.rank)
  shapeCasts_S64x1_S64x1x1 : S64x1.ShapeCasts S64x1x1
  bcast_S_S64x1x1 : S_.BroadcastsInDim S64x1x1 (![] : Fin 0 → Fin S64x1x1.rank)
  bcast_S1_S1x1x1_2 : S1.BroadcastsInDim S1x1x1 (![2] : Fin 1 → Fin S1x1x1.rank)
  bcast_S1x1x1_S64x1x1_0_1_2 : S1x1x1.BroadcastsInDim S64x1x1 (![0, 1, 2] : Fin 3 → Fin S64x1x1.rank)
  reducesTo_S64x1x1_S64x1_d2 : S64x1x1.ReducesTo [2] S64x1
  reducesTo_S64x1_S_d0_1 : S64x1.ReducesTo [0, 1] S_
  shapeCasts_S64x1x512x512_S64x512x512 : S64x1x512x512.ShapeCasts S64x512x512
  inb_S1x1_S1x1_0_0 : ∀ a, (![0, 0] : Fin 2 → Nat) a + S1x1.size a ≤ S1x1.size a
  h_S1x1 : 0 < S1x1.numel
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  shapeCasts_S1x1_S1x1 : S1x1.ShapeCasts S1x1
  shapeCasts_S4x512x512_S1x4x512x512 : S4x512x512.ShapeCasts S1x4x512x512
  reduces_S1x4x512x512_S1 : S1x4x512x512.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  shapeCasts_S1x1_S_ : S1x1.ShapeCasts S_
  slices_S64x60x2_S64x60x1_0_0_0 : S64x60x2.Slices ![0, 0, 0] S64x60x1
  shapeCasts_S64x60x1_S64x60 : S64x60x1.ShapeCasts S64x60
  slices_S64x60x2_S64x60x1_0_0_1 : S64x60x2.Slices ![0, 0, 1] S64x60x1
  bcast_S_S64x60 : S_.BroadcastsInDim S64x60 (![] : Fin 0 → Fin S64x60.rank)
  reducesTo_S64x60_S_d0_1 : S64x60.ReducesTo [0, 1] S_
  gather_S64x2_S64x1x1_S64x1_n_1_0_0_1_2_11_wf : GatherDims.WF S64x2 S64x1x1 S64x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S64x512x512.size a
  hwx0_0 : ∀ i : grid0.Coords, EltTy.bits .f32 = 32 ∨ (Rect.block (s := S64x512x512) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S64x512x512.size a
  hwx0_1 : ∀ i : grid0.Coords, EltTy.bits .f32 = 32 ∨ (Rect.block (s := S64x512x512) S4x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S64x2_S64x1x1_S64x1_n_1_0_0_1_2_11 : GatherDims S64x2 S64x1x1 S64x1 where
  offsetDims := []
  collapsedSliceDims := [1]
  operandBatchingDims := [0]
  startIndicesBatchingDims := [0]
  startIndexMap := [1]
  indexVectorDim := 2
  sliceSizes := ![1, 1]
  wf := gather_S64x2_S64x1x1_S64x1_n_1_0_0_1_2_11_wf

abbrev win0_0 : Pipeline.Window sig grid0 :=
  Pipeline.Window.ofSpec (Memref.whole main_v6) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2 : Shape := ⟨2, ![64, 2]⟩
abbrev S64 : Shape := ⟨1, ![64]⟩
abbrev S64x60x2 : Shape := ⟨3, ![64, 60, 2]⟩
abbrev S64x1x512x512 : Shape := ⟨4, ![64, 1, 512, 512]⟩
abbrev S_ : Shape := ⟨0, ![]⟩
abbrev S64x1 : Shape := ⟨2, ![64, 1]⟩
abbrev S64x1x1 : Shape := ⟨3, ![64, 1, 1]⟩
abbrev S1 : Shape := ⟨1, ![1]⟩
abbrev S1x1x1 : Shape := ⟨3, ![1, 1, 1]⟩
abbrev S64x60x1 : Shape := ⟨3, ![64, 60, 1]⟩
abbrev S64x60 : Shape := ⟨2, ![64, 60]⟩

abbrev nBuf : Space → Nat
  | .hbm => 91
  | .vmem => 0
  | .smem => 0
  | _ => 0

abbrev bufTy : (tb : Table) → Fin (tcTables nBuf tb) → BufTy
  | .hbm, ⟨0, _⟩ => ⟨S64x2, .f32⟩
  | .hbm, ⟨1, _⟩ => ⟨S64, .i32⟩
  | .hbm, ⟨2, _⟩ => ⟨S64x60x2, .f32⟩
  | .hbm, ⟨3, _⟩ => ⟨S64x60x2, .f32⟩
  | .hbm, ⟨4, _⟩ => ⟨S64x1x512x512, .f32⟩
  | .hbm, ⟨5, _⟩ => ⟨S64x1x512x512, .f32⟩
  | .hbm, ⟨6, _⟩ => ⟨S_, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64x1, .f32⟩
  | .hbm, ⟨12, _⟩ => ⟨S64x2, .f32⟩
  | .hbm, ⟨13, _⟩ => ⟨S64x2, .f32⟩
  | .hbm, ⟨14, _⟩ => ⟨S64x2, .f32⟩
  | .hbm, ⟨15, _⟩ => ⟨S_, .f32⟩
  | .hbm, ⟨16, _⟩ => ⟨S64, .f32⟩
  | .hbm, ⟨17, _⟩ => ⟨S64x1, .f32⟩
  | .hbm, ⟨18, _⟩ => ⟨S64x1, .f32⟩
  | .hbm, ⟨19, _⟩ => ⟨S64x2, .f32⟩
  | .hbm, ⟨20, _⟩ => ⟨S64x2, .f32⟩
  | .hbm, ⟨21, _⟩ => ⟨S64x1, .i32⟩
  | .hbm, ⟨22, _⟩ => ⟨S_, .i32⟩
  | .hbm, ⟨23, _⟩ => ⟨S64x1, .i32⟩
  | .hbm, ⟨24, _⟩ => ⟨S64x1, .i1⟩
  | .hbm, ⟨25, _⟩ => ⟨S_, .i32⟩
  | .hbm, ⟨26, _⟩ => ⟨S64x1, .i32⟩
  | .hbm, ⟨27, _⟩ => ⟨S64x1, .i32⟩
  | .hbm, ⟨28, _⟩ => ⟨S64x1, .i32⟩
  | .hbm, ⟨29, _⟩ => ⟨S64x1x1, .i32⟩
  | .hbm, ⟨30, _⟩ => ⟨S1, .i32⟩
  | .hbm, ⟨31, _⟩ => ⟨S_, .i32⟩
  | .hbm, ⟨32, _⟩ => ⟨S64x1x1, .i32⟩
  | .hbm, ⟨33, _⟩ => ⟨S64x1x1, .i1⟩
  | .hbm, ⟨34, _⟩ => ⟨S1x1x1, .i32⟩
  | .hbm, ⟨35, _⟩ => ⟨S64x1x1, .i32⟩
  | .hbm, ⟨36, _⟩ => ⟨S64x1x1, .i1⟩
  | .hbm, ⟨37, _⟩ => ⟨S64x1x1, .i1⟩
  | .hbm, ⟨38, _⟩ => ⟨S_, .i1⟩
  | .hbm, ⟨39, _⟩ => ⟨S64x1, .i1⟩
  | .hbm, ⟨40, _⟩ => ⟨S64x1, .f32⟩
  | .hbm, ⟨41, _⟩ => ⟨S_, .f32⟩
  | .hbm, ⟨42, _⟩ => ⟨S64x1, .f32⟩
  | .hbm, ⟨43, _⟩ => ⟨S64x1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S64x1x512x512, .f32⟩
  | .hbm, ⟨51, _⟩ => ⟨S64x1x512x512, .f32⟩
  | .hbm, ⟨52, _⟩ => ⟨S64x1x512x512, .f32⟩
  | .hbm, ⟨53, _⟩ => ⟨S64x1x512x512, .f32⟩
  | .hbm, ⟨54, _⟩ => ⟨S64x1x512x512, .f32⟩
  | .hbm, ⟨55, _⟩ => ⟨S64x1x512x512, .f32⟩
  | .hbm, ⟨56, _⟩ => ⟨S64x1x512x512, .f32⟩
  | .hbm, ⟨57, _⟩ => ⟨S64x1x512x512, .f32⟩
  | .hbm, ⟨58, _⟩ => ⟨S64x1x512x512, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S64x60x2, .f32⟩
  | .hbm, ⟨64, _⟩ => ⟨S64x60x2, .f32⟩
  | .hbm, ⟨65, _⟩ => ⟨S64x60x1, .f32⟩
  | .hbm, ⟨66, _⟩ => ⟨S64x60, .f32⟩
  | .hbm, ⟨67, _⟩ => ⟨S64x60x1, .f32⟩
  | .hbm, ⟨68, _⟩ => ⟨S64x60, .f32⟩
  | .hbm, ⟨69, _⟩ => ⟨S64x60, .f32⟩
  | .hbm, ⟨70, _⟩ => ⟨S_, .f32⟩
  | .hbm, ⟨71, _⟩ => ⟨S64x60, .f32⟩
  | .hbm, ⟨72, _⟩ => ⟨S64x60, .f32⟩
  | .hbm, ⟨73, _⟩ => ⟨S64x60, .f32⟩
  | .hbm, ⟨74, _⟩ => ⟨S64x60, .f32⟩
  | .hbm, ⟨75, _⟩ => ⟨S_, .f32⟩
  | .hbm, ⟨76, _⟩ => ⟨S64x60, .f32⟩
  | .hbm, ⟨77, _⟩ => ⟨S64x60, .i1⟩
  | .hbm, ⟨78, _⟩ => ⟨S64x60, .f32⟩
  | .hbm, ⟨79, _⟩ => ⟨S_, .f32⟩
  | .hbm, ⟨80, _⟩ => ⟨S64x60, .f32⟩
  | .hbm, ⟨81, _⟩ => ⟨S64x60, .f32⟩
  | .hbm, ⟨82, _⟩ => ⟨S64x60, .f32⟩
  | .hbm, ⟨83, _⟩ => ⟨S_, .f32⟩
  | .hbm, ⟨84, _⟩ => ⟨S64x60, .f32⟩
  | .hbm, ⟨85, _⟩ => ⟨S64x60, .f32⟩
  | .hbm, ⟨86, _⟩ => ⟨S64x60, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S64x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v0 : Ref sig .tc := ⟨.hbm, 20, rfl⟩
abbrev main_v1 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v2 : Ref sig .tc := ⟨.hbm, 43, rfl⟩
abbrev main_cst : Ref sig .tc := ⟨.hbm, 44, rfl⟩
abbrev main_v3 : Ref sig .tc := ⟨.hbm, 45, rfl⟩
abbrev main_cst_0 : Ref sig .tc := ⟨.hbm, 46, rfl⟩
abbrev main_v4 : Ref sig .tc := ⟨.hbm, 47, rfl⟩
abbrev main_v5 : Ref sig .tc := ⟨.hbm, 48, rfl⟩
abbrev main_cst_1 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_cst_2 : Ref sig .tc := ⟨.hbm, 59, rfl⟩
abbrev main_v15 : Ref sig .tc := ⟨.hbm, 60, rfl⟩
abbrev main_cst_3 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_cst_4 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_cst_6 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_cst_7 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_cst_8 : Ref sig .tc := ⟨.hbm, 87, rfl⟩
abbrev main_v37 : Ref sig .tc := ⟨.hbm, 88, rfl⟩
abbrev main_cst_9 : Ref sig .tc := ⟨.hbm, 89, rfl⟩
abbrev main_v38 : Ref sig .tc := ⟨.hbm, 90, rfl⟩

abbrev nD : Nat := 1
abbrev τ : Topo := Topo.v7x

variable {F : FTy → Type} [FloatOps F]

class Facts₀ : Prop where
  reducesTo_S64x2_S64_d1 : S64x2.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  bcast_S_S64x1 : S_.BroadcastsInDim S64x1 (![] : Fin 0 → Fin S64x1.rank)
  shapeCasts_S64x1_S64x1x1 : S64x1.ShapeCasts S64x1x1
  bcast_S_S64x1x1 : S_.BroadcastsInDim S64x1x1 (![] : Fin 0 → Fin S64x1x1.rank)
  bcast_S1_S1x1x1_2 : S1.BroadcastsInDim S1x1x1 (![2] : Fin 1 → Fin S1x1x1.rank)
  bcast_S1x1x1_S64x1x1_0_1_2 : S1x1x1.BroadcastsInDim S64x1x1 (![0, 1, 2] : Fin 3 → Fin S64x1x1.rank)
  reducesTo_S64x1x1_S64x1_d2 : S64x1x1.ReducesTo [2] S64x1
  reducesTo_S64x1_S_d0_1 : S64x1.ReducesTo [0, 1] S_
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  slices_S64x60x2_S64x60x1_0_0_0 : S64x60x2.Slices ![0, 0, 0] S64x60x1
  shapeCasts_S64x60x1_S64x60 : S64x60x1.ShapeCasts S64x60
  slices_S64x60x2_S64x60x1_0_0_1 : S64x60x2.Slices ![0, 0, 1] S64x60x1
  bcast_S_S64x60 : S_.BroadcastsInDim S64x60 (![] : Fin 0 → Fin S64x60.rank)
  reducesTo_S64x60_S_d0_1 : S64x60.ReducesTo [0, 1] S_
  gather_S64x2_S64x1x1_S64x1_n_1_0_0_1_2_11_wf : GatherDims.WF S64x2 S64x1x1 S64x1 [] [1] [0] [1] [0] 2 ![1, 1]

variable [Facts₀]

def gather_S64x2_S64x1x1_S64x1_n_1_0_0_1_2_11 : GatherDims S64x2 S64x1x1 S64x1 where
  offsetDims := []
  collapsedSliceDims := [1]
  operandBatchingDims := [0]
  startIndicesBatchingDims := [0]
  startIndexMap := [1]
  indexVectorDim := 2
  sliceSizes := ![1, 1]
  wf := gather_S64x2_S64x1x1_S64x1_n_1_0_0_1_2_11_wf

class Facts : Prop extends Facts₀ where

variable [Facts]
-- ==== Proof.FinalValue.lean ====
/-
  The region's result array. Its one block never moves and is written back once, after the last grid point; the
  block is the whole [1, 1] array. So after the region the array holds what the accumulator held after point 15.
-/
import proofs.«140925_j7825430413956_1_alg».proof.Proof.Gen.KernelIdeal.Frame
import Idealize.ShloMosaic.Lib.Pipeline.Value

noncomputable section

open Idealize.ShloMosaic Idealize.ShloMosaic.TcCoe Idealize.SL.Sem
open Idealize.ShloMosaic.Pipeline (Dat)

namespace Cert.KernelIdeal.BceValue

open Cert.KernelIdeal Cert.KernelIdeal.Gen

variable {F : FTy → Type} [FloatOps F]
variable (m : (ℓ : Loc nD τ sig) → Buf (Elt F) ℓ) (ρ : Dev nD → PrngReg)

/-- What the accumulator holds after the last point, as contents of the result array. -/
abbrev lastAcc (c : Dev nD) : Buf (Elt F) ((c : Thread nD τ).loc main_v8) :=
  outsAt0 m c 15 (by rw [show cfg0.N = 16 from N_0]; decide)

/-- The one write-back, at point 15, writes it: block (0, 0) of a [1, 1] array read through zero offsets is the array. -/
theorem flushed_eq (c : Dev nD) (t : Fin cfg0.N) (hf : (cfg0.win 2).flush t = true) :
    (dats m 0 c).flushed 2 t = ((cfg0.win 2).blk t).view.read (Elt F) (lastAcc m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2]
  have hz' : (fun a => win0_2.index t0_15 a * main_v8.ty.shape.size a) = fun _ => 0 :=
    funext fun a => by fin_cases a <;> decide
  exact (Memref.read_access_unit_zero (Elt F) main_v8 hz' (fun a => by rw [congrFun hz' a]; simp) (lastAcc m c)).symm

/-- So the result array ends holding the accumulator's last value: point 15's block covers its one entry. -/
theorem final_acc (c : Dev nD) : (dats m 0 c).arrAt 2 cfg0.N = lastAcc m c :=
  (dats m 0 c).arrAt_eq_of_cover 2 (lastAcc m c) (flushed_eq m c) fun i =>
    ⟨t0_15, (flush0_2 t0_15).mpr rfl, by
      show i ∈ ((View.whole main_v8).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_15 0 * win0_2.size 0 ≤ (i 0 : Nat)
          ∧ (i 0 : Nat) < win0_2.index t0_15 0 * win0_2.size 0 + win0_2.xsize (grid0.coords t0_15) 0
        rw [show win0_2.index t0_15 0 * win0_2.size 0 = 0 from by decide +kernel,
          show win0_2.xsize (grid0.coords t0_15) 0 = 1 from by decide +kernel]
        omega
      | ⟨1, _⟩ =>
        show win0_2.index t0_15 1 * win0_2.size 1 ≤ (i 1 : Nat)
          ∧ (i 1 : Nat) < win0_2.index t0_15 1 * win0_2.size 1 + win0_2.xsize (grid0.coords t0_15) 1
        rw [show win0_2.index t0_15 1 * win0_2.size 1 = 0 from by decide +kernel,
          show win0_2.xsize (grid0.coords t0_15) 1 = 1 from by decide +kernel]
        omega⟩

end Cert.KernelIdeal.BceValue

end
-- ==== Proof.KernelRun.lean ====
/-
  The kernel program's run, with each of its three results named.

  The first result (the mean cross-entropy of the class scores) is computed by host operations before the region and
  touched by nothing after it; the third (the smooth-L1 term of the point distances) by host operations after the
  region, from two argument arrays the region never stages. Both programs apply the same host operations in the same
  order with the same constants to the same arguments, so each of these two results is the other program's stage,
  by unfolding alone.
  The second result is the region's [1, 1] result array — the accumulator's last value — re-shaped to a scalar and
  divided by the constant 64.
-/
import proofs.«140925_j7825430413956_1_alg».proof.Proof.FinalValue
import proofs.«140925_j7825430413956_1_alg».proof.Proof.Gen.ReferenceIdeal.Read
import Idealize.ShloMosaic.Lib.Pipeline.Value
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.BceValue

open Cert.KernelIdeal Cert.KernelIdeal.Gen

variable {F : FTy → Type} [FloatOps F]
variable (m : (ℓ : Loc nD τ sig) → Buf (Elt F) ℓ) (ρ : Dev nD → PrngReg)

set_option maxRecDepth 8192 in
set_option maxHeartbeats 4000000 in
/-- The first result: no operation after the region writes it, and the operations before the region compute the
    mean cross-entropy of the class scores at the labels — the other program's stage of the same name. -/
theorem tail_v5 (c : Dev nD) :
    Pipeline.afterTail₀ cfgs (dats m) 0 (V0 m) [hostOps1, hostOps1_1, hostOps1_2] c main_v5
      = Cert.ReferenceIdeal.Read.val_main_v5 (F := F) (m ((c : Thread nD τ).loc main_arg0)) (m ((c : Thread nD τ).loc main_arg1)) := by
  unfold Pipeline.afterTail₀
  rw [StableHlo.after_of_forall_not_mem (b := Proc.devRef .tc main_v5) _ _ (List.forall_iff_forall_mem.mp (by
      simp only [hostOps1, hostOps1_1, hostOps1_2, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v5 (by exact (by decide : ∀ w, Pipeline.arrRef spec0 w ≠ main_v5))]
  show StableHlo.after (List.flatten [hostOps0, hostOps0_1, hostOps0_2, hostOps0_3]) (fun b => m (c, b)) (Proc.devRef .tc main_v5) = _
  simp only [hostOps0, hostOps0_1, hostOps0_2, hostOps0_3, List.flatten_cons, List.flatten_nil, List.append_nil, List.cons_append, List.nil_append]
  after_results_simp
  rfl

set_option maxRecDepth 8192 in
set_option maxHeartbeats 4000000 in
/-- The third result: the operations after the region compute the smooth-L1 term from two argument arrays, which the
    region leaves as launched — the other program's stage. -/
theorem tail_v32 (c : Dev nD) :
    Pipeline.afterTail₀ cfgs (dats m) 0 (V0 m) [hostOps1, hostOps1_1, hostOps1_2] c main_v32
      = Cert.ReferenceIdeal.Read.val_main_v38 (F := F) (m ((c : Thread nD τ).loc main_arg2)) (m ((c : Thread nD τ).loc main_arg3)) := by
  unfold Pipeline.afterTail₀
  simp only [hostOps1, hostOps1_1, hostOps1_2, List.flatten_cons, List.flatten_nil, List.append_nil, List.cons_append, List.nil_append]
  after_results_simp
  rw [Pipeline.withArrays_of_ne _ c (V0 m c) _ main_arg2 (by exact (by decide : ∀ w, Pipeline.arrRef spec0 w ≠ main_arg2)),
    Pipeline.withArrays_of_ne _ c (V0 m c) _ main_arg3 (by exact (by decide : ∀ w, Pipeline.arrRef spec0 w ≠ main_arg3)),
    show V0 m c (Proc.devRef .tc main_arg2) = m ((c : Thread nD τ).loc main_arg2) from V_main_arg2 m c,
    show V0 m c (Proc.devRef .tc main_arg3) = m ((c : Thread nD τ).loc main_arg3) from V_main_arg3 m c]
  rfl

set_option maxRecDepth 8192 in
set_option maxHeartbeats 4000000 in
/-- The second result: the region's result array, re-shaped to a scalar and divided by 64. -/
theorem tail_v10 (c : Dev nD) :
    Pipeline.afterTail₀ cfgs (dats m) 0 (V0 m) [hostOps1, hostOps1_1, hostOps1_2] c main_v10
      = Host.divf (shapeCast S_ (lastAcc m c) shapeCasts_S1x1_S_) (constant S_ .f32 0x42800000#32) := by
  unfold Pipeline.afterTail₀
  simp only [hostOps1, hostOps1_1, hostOps1_2, List.flatten_cons, List.flatten_nil, List.append_nil, List.cons_append, List.nil_append]
  after_results_simp
  have e : Pipeline.withArrays (cfgs 0).spec c (V0 m c) (fun w => (dats m 0 c).arrAt w (cfgs 0).N) (Proc.devRef .tc main_v8)
      = lastAcc m c :=
    (Pipeline.withArrays_arr spec0 launch0.win.arr_inj c _ _ 2).trans (final_acc m c)
  rw [e]
  rfl

/-- The kernel program's run: every weakly fair execution terminates with the three results at the values above and
    the six argument arrays as launched. -/
theorem run : θ_run defs (onTc (τ := τ) (main (F := F))) ⟨m, fun _ => 0, ρ⟩ fun r => ∀ c : Dev nD,
      r.2.mem ((c.tc : Thread nD τ).loc main_v5)
        = Cert.ReferenceIdeal.Read.val_main_v5 (F := F) (m ((c : Thread nD τ).loc main_arg0)) (m ((c : Thread nD τ).loc main_arg1))
      ∧ r.2.mem ((c.tc : Thread nD τ).loc main_v10)
        = Host.divf (shapeCast S_ (lastAcc m c) shapeCasts_S1x1_S_) (constant S_ .f32 0x42800000#32)
      ∧ r.2.mem ((c.tc : Thread nD τ).loc main_v32)
        = Cert.ReferenceIdeal.Read.val_main_v38 (F := F) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v5 (Pipeline.mem_restRefs_of main_v5 (by decide) (by decide))).trans (tail_v5 m c),
      ((h c).2 main_v10 (Pipeline.mem_restRefs_of main_v10 (by decide) (by decide))).trans (tail_v10 m c),
      ((h c).2 main_v32 (Pipeline.mem_restRefs_of main_v32 (by decide) (by decide))).trans (tail_v32 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.BceValue

end
-- ==== Proof.CaseValues.lean ====
/-
  What one grid point leaves in the one-element accumulator, for each of the body's two control cases.
  At the first point the body clears the accumulator and then adds the point's block sum to the cleared value;
  at every later point it adds the block sum to what the point before left. In both cases the accumulator ends
  at the body's single arithmetic term applied to the two input blocks and the value the accumulator held when
  the final store's operand was computed.
-/
import proofs.«140925_j7825430413956_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.BceValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point: the accumulator held `acc`, and ends at the body's term of the two blocks and `acc`. -/
theorem later_point (c : Dev nD) (i : grid0.Coords) (a1 : Memref sig .tc .vmem S4x512x512 .f32) (h1 : a1.IsWhole)
    (a2 : Memref sig .tc .vmem S4x512x512 .f32) (h2 : a2.IsWhole) (a3 : Memref sig .tc .vmem S1x1 .f32) (h3 : a3.IsWhole)
    (hc : ¬cond0_0 i) (x y : Vec F S4x512x512 .f32) (acc : Vec F S1x1 .f32) :
    out0_B_2 c i a1 h1 a2 h2 a3 h3 hc x y acc = k0_pay2 x y acc := by
  unfold out0_B_2
  rw [View.read_writes_eq_canon _ _ _ (cover0_B_2 c i a1 h1 a2 h2 a3 h3 hc x y acc)]
  unfold kernelRun0_B
  dsimp only
  rw [View.canon_unit_zero hz2]
  simp only [View.readAt_eq_ld, h1.read_unread, h2.read_unread, h3.read_unread, View.ld_unit_zero (S := S4x512x512) hz3,
    View.ld_unit_zero (S := S1x1) hz2]

/-- The first point: the accumulator is cleared (the body's zero term), and ends at the body's term of the two blocks
    and that zero. -/
theorem first_point (c : Dev nD) (i : grid0.Coords) (a1 : Memref sig .tc .vmem S4x512x512 .f32) (h1 : a1.IsWhole)
    (a2 : Memref sig .tc .vmem S4x512x512 .f32) (h2 : a2.IsWhole) (a3 : Memref sig .tc .vmem S1x1 .f32) (h3 : a3.IsWhole)
    (hc : cond0_0 i) (x y : Vec F S4x512x512 .f32) :
    out0_A_2 c i a1 h1 a2 h2 a3 h3 hc x y = k0_pay2 x y (k0_pay1 (F := F)) := by
  unfold out0_A_2
  rw [View.read_writes_eq_canon _ _ _ (cover0_A_2 c i a1 h1 a2 h2 a3 h3 hc x y)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S4x512x512) hz3]

end Cert.KernelIdeal.BceValue

end
-- ==== Proof.BlockSums.lean ====
/-
  The mathematics shared by the two programs' second result, stated over the extended reals with no program in sight.

  * The per-element loss term  max(x, 0) - x*y + log(1 + exp(-|x|)).  One program negates |x|, the other subtracts
    it from zero; over the extended reals  0 - a = -a  for every a, so the two spellings are one function.
  * A sum over all entries of an array is unchanged by viewing the array under another shape with the same
    row-major order: the view is a bijection of index sets.
  * The batch axis of extent 64 is cut into 16 blocks of 4 rows: (block t, row a) names batch row 4t + a. This is a
    bijection between (block, entry-in-block) pairs and entries of the whole [64, 1, 512, 512] array, so summing
    block by block and then over blocks is summing over the whole array — in any commutative additive monoid, so no
    finiteness of the summands is used.
-/
import Idealize.ShloMosaic.PureOps.Ideal
import Idealize.ShloMosaic.PureOps.Ideal.Laws
import Idealize.ShloMosaic.Lib.ValueIdx

noncomputable section

open scoped BigOperators

namespace Cert.BlockSums

open Idealize.ShloMosaic Idealize.ShloMosaic.ValueIdx

/-- One block of four batch rows. -/
abbrev Blk : Shape := ⟨3, ![4, 512, 512]⟩
/-- The whole array, with its unit channel axis. -/
abbrev Arr : Shape := ⟨4, ![64, 1, 512, 512]⟩

/-- The loss term of one logit `x` and one target `y`:  max(x, 0) - x*y + log(1 + exp(-|x|)). -/
def term (x y : Ideal .f32) : Ideal .f32 :=
  FloatOps.addf (FloatOps.subf (FloatOps.maximumf x (FloatOps.ofBits .f32 0x00000000#32)) (FloatOps.mulf x y))
    (FloatOps.hostUnary .log1p (FloatOps.hostUnary .exp (FloatOps.hostNegf (FloatOps.hostAbsf x))))

/-- The same term with -|x| spelt as 0 - |x|. -/
theorem term_of_zero_sub (x y : Ideal .f32) :
    FloatOps.addf (FloatOps.subf (FloatOps.maximumf x (FloatOps.ofBits .f32 0x00000000#32)) (FloatOps.mulf x y))
      (FloatOps.log1p (FloatOps.exp (FloatOps.subf (FloatOps.ofBits .f32 0x00000000#32) (FloatOps.absf x)))) = term x y := by
  unfold term
  simp only [Ideal.hostUnary_log1p_def, Ideal.hostUnary_exp_def, Ideal.hostNegf_def, Ideal.log1p_def, Ideal.exp_def,
    Ideal.hostAbsf_def, Ideal.subf_def, Ideal.negf_def, Ideal.ofBits_def, Ideal.ofBits_zero_f32, zero_sub]

/-- The sum of the loss term over the entries of one block of logits `x` and targets `y`. -/
def blockSum (x y : Blk.Idx → Ideal .f32) : Ideal .f32 := ∑ j : Blk.Idx, term (x j) (y j)

/-- Summing all entries of a re-shaped array is summing all entries of the array. -/
theorem sum_shapeCast {M : Type} [AddCommMonoid M] {s t : Shape} (x : s.Idx → M) (h : s.ShapeCasts t) :
    ∑ j : t.Idx, shapeCast t x h j = ∑ k : s.Idx, x k :=
  Equiv.sum_comp (Shape.reshapeEquiv h) x

/-- Entry (a, r, q) of block `t`, as an entry of the whole array: batch row 4t + a, the one channel, position (r, q). -/
def blockEntry (t : Fin 16) (j : Blk.Idx) : Arr.Idx :=
  ix4 (n0 := 64) (n1 := 1) (n2 := 512) (n3 := 512)
    ⟨4 * t.val + (j 0).val, by have h0 : (j 0).val < 4 := (j 0).isLt; have := t.isLt; omega⟩ 0 (j 1) (j 2)

/-- (block, entry in the block) pairs are the entries of the whole array: batch row b is row b mod 4 of block b / 4. -/
def blockEquiv : Fin 16 × Blk.Idx ≃ Arr.Idx where
  toFun p := blockEntry p.1 p.2
  invFun i := (⟨(i 0).val / 4, by have h : (i 0).val < 64 := (i 0).isLt; omega⟩,
    ix3 (n0 := 4) (n1 := 512) (n2 := 512) ⟨(i 0).val % 4, Nat.mod_lt _ (by decide)⟩ (i 2) (i 3))
  left_inv := by
    rintro ⟨t, j⟩
    have h0 : (j 0).val < 4 := (j 0).isLt
    refine Prod.ext (Fin.ext ?_) (funext fun a => ?_)
    · show (4 * t.val + (j 0).val) / 4 = t.val
      omega
    · match a with
      | ⟨0, _⟩ => exact Fin.ext (by show (4 * t.val + (j 0).val) % 4 = (j 0).val; omega)
      | ⟨1, _⟩ => rfl
      | ⟨2, _⟩ => rfl
  right_inv := by
    intro i
    have h0 : (i 0).val < 64 := (i 0).isLt
    have h1 : (i 1).val < 1 := (i 1).isLt
    funext a
    match a with
    | ⟨0, _⟩ => exact Fin.ext (by show 4 * ((i 0).val / 4) + (i 0).val % 4 = (i 0).val; omega)
    | ⟨1, _⟩ => exact Fin.ext (by show 0 = (i 1).val; omega)
    | ⟨2, _⟩ => rfl
    | ⟨3, _⟩ => rfl

/-- Block by block, then over the blocks, is over the whole array. -/
theorem sum_blocks {M : Type} [AddCommMonoid M] (g : Arr.Idx → M) :
    ∑ t : Fin 16, ∑ j : Blk.Idx, g (blockEntry t j) = ∑ i : Arr.Idx, g i := by
  rw [← Equiv.sum_comp blockEquiv g, Fintype.sum_prod_type]
  rfl

end Cert.BlockSums

end
-- ==== Proof.BodyTerm.lean ====
/-
  The body's arithmetic at one grid point, read over the extended reals: the accumulator's one entry becomes its
  previous value plus the sum, over the 4 x 512 x 512 entries of the point's two blocks, of the loss term.
-/
import proofs.«140925_j7825430413956_1_alg».proof.Proof.Gen.KernelIdeal.Skeleton
import proofs.«140925_j7825430413956_1_alg».proof.Proof.BlockSums
import Idealize.ShloMosaic.Lib.Pipeline.Value
import Idealize.ShloMosaic.PureOps.Ideal.Laws

noncomputable section

open scoped BigOperators
open Idealize.ShloMosaic Idealize.ShloMosaic.ValueIdx

namespace Cert.KernelIdeal.BceValue

open Cert.KernelIdeal Cert.KernelIdeal.Gen Cert.BlockSums

/-- The lane reduction of a block `W` viewed as [1, 4, 512, 512] over its three long axes has one entry; that entry,
    extracted and broadcast to the accumulator's shape, is the sum of all entries of `W`. -/
theorem lane_total (W : FVec Ideal S4x512x512 .f32) (hφ : FKind.Formats FTy.f32)
    (hacc : (0x00000000#32 : BitVec FTy.f32.bits) = FKind.add.neutral FTy.f32 hφ) (i : S1x1.Idx) :
    broadcast S1x1 (extractAt ![0, 0, 0, 0]
      (shapeCast S1x1x1x1
        (multiReduction .add [1, 2, 3] S1 (shapeCast S1x4x512x512 W shapeCasts_S4x512x512_S1x4x512x512) 0x00000000#32
          reduces_S1x4x512x512_S1 hφ hacc)
        shapeCasts_S1_S1x1x1x1) inpos_S1x1x1x1_p0_0_0_0) i = ∑ j : S4x512x512.Idx, W j :=
  (Ideal.multiReduction_add_total (shapeCast S1x4x512x512 W shapeCasts_S4x512x512_S1x4x512x512) 0x00000000#32
    reduces_S1x4x512x512_S1 (fun b => by fin_cases b; rfl) hφ hacc _).trans
    (sum_shapeCast W shapeCasts_S4x512x512_S1x4x512x512)

theorem body_term (x y : Vec Ideal S4x512x512 .f32) (acc : Vec Ideal S1x1 .f32) (i : S1x1.Idx) :
    k0_pay2 (F := Ideal) x y acc i = acc i + blockSum x y := by
  unfold k0_pay2
  simp only [shapeCast_self]
  show acc i + _ = acc i + ∑ j : S4x512x512.Idx, term (x j) (y j)
  congr 1
  refine (lane_total _ _ _ i).trans ?_
  refine Finset.sum_congr rfl fun j _ => ?_
  exact term_of_zero_sub (x j) (y j)

end Cert.KernelIdeal.BceValue

end
-- ==== Proof.RunningSum.lean ====
/-
  What the accumulator holds after each grid point: the sum of the block sums of the points so far.
  The first point clears it (to the zero word, which is the extended real 0) and adds its block sum; every later
  point adds its block sum to what the point before left. By induction on the point, never by listing the grid.
-/
import proofs.«140925_j7825430413956_1_alg».proof.Proof.CaseValues
import proofs.«140925_j7825430413956_1_alg».proof.Proof.BodyTerm

noncomputable section

open scoped BigOperators
open Idealize.ShloMosaic Idealize.ShloMosaic.TcCoe Idealize.SL.Sem Idealize.ShloMosaic.ValueIdx

namespace Cert.KernelIdeal.BceValue

open Cert.KernelIdeal Cert.KernelIdeal.Gen Cert.BlockSums

variable (m : (ℓ : Loc nD τ sig) → Buf (Elt Ideal) ℓ)

/-- The block sum of grid point `t`: over the entries of the logits' and the targets' blocks the point is given. -/
def pointSum (c : Dev nD) (t : Fin cfg0.N) : Ideal .f32 := blockSum (iblk m c 0 t) (iblk m c 1 t)

/-- After point `n` the accumulator's entry is the sum of the block sums of points 0, …, n. -/
theorem running_sum (c : Dev nD) : ∀ (n : ℕ) (h : n < cfg0.N) (i : S1x1.Idx),
    outsAt0 m c n h i = ∑ t : Fin (n + 1), pointSum m c ⟨t.val, Nat.lt_of_lt_of_le t.isLt h⟩
  | 0, h, i => by
    have e := (outsAt0_A m c ⟨0, h⟩ rfl).trans
      (first_point (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) ((hcond0_0 ⟨0, h⟩).mpr rfl) (iblk m c 0 ⟨0, h⟩) (iblk m c 1 ⟨0, h⟩))
    refine (congrFun e i).trans ((body_term (iblk m c 0 ⟨0, h⟩) (iblk m c 1 ⟨0, h⟩) (k0_pay1 (F := Ideal)) i).trans ?_)
    rw [Fin.sum_univ_one]
    show Ideal.ofBits .f32 0x00000000#32 + pointSum m c ⟨0, h⟩ = pointSum m c ⟨0, _⟩
    rw [Ideal.ofBits_zero_f32, zero_add]
  | n + 1, h, i => by
    have hN : cfg0.N = 16 := N_0
    have hB : ¬(⟨n + 1, h⟩ : Fin cfg0.N).val % 16 = 0 := by dsimp only; omega
    have e := (outsAt0_B m c ⟨n + 1, h⟩ hB).trans
      (later_point (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (fun hh => hB ((hcond0_0 ⟨n + 1, h⟩).mp hh))
        (iblk m c 0 ⟨n + 1, h⟩) (iblk m c 1 ⟨n + 1, h⟩) (outsAt0 m c n (Nat.lt_of_succ_lt h)))
    refine (congrFun e i).trans ((body_term (iblk m c 0 ⟨n + 1, h⟩) (iblk m c 1 ⟨n + 1, h⟩)
      (outsAt0 m c n (Nat.lt_of_succ_lt h)) i).trans ?_)
    rw [running_sum c n (Nat.lt_of_succ_lt h) i]
    exact (Fin.sum_univ_castSucc
      (fun t : Fin (n + 1 + 1) => pointSum m c ⟨t.val, Nat.lt_of_lt_of_le t.isLt h⟩)).symm

end Cert.KernelIdeal.BceValue

end
-- ==== Proof.BlockReads.lean ====
/-
  What the region's two input windows hand to the body at grid point t, in terms of the program's argument arrays.
  Before the region the host views each [64, 1, 512, 512] argument as [64, 512, 512] (same row-major order: entry
  (b, r, q) of the view is entry (b, 0, r, q) of the argument). A window's block at point t starts at batch row 4t and
  spans four rows, so its entry (a, r, q) is the view's entry (4t + a, r, q).
-/
import proofs.«140925_j7825430413956_1_alg».proof.Proof.Gen.KernelIdeal.Frame
import proofs.«140925_j7825430413956_1_alg».proof.Proof.BlockSums
import Idealize.ShloMosaic.Lib.Pipeline.Value
import Idealize.ShloMosaic.Lib.StableHlo.Run

noncomputable section

open Idealize.ShloMosaic Idealize.ShloMosaic.TcCoe Idealize.SL.Sem Idealize.ShloMosaic.StableHlo
open Idealize.ShloMosaic.ValueIdx

namespace Cert.KernelIdeal.BceValue

open Cert.KernelIdeal Cert.KernelIdeal.Gen Cert.BlockSums

variable {F : FTy → Type} [FloatOps F]
variable (m : (ℓ : Loc nD τ sig) → Buf (Elt F) ℓ)

/-- The [64, 1, 512, 512] → [64, 512, 512] view read at an entry: the same row-major position. -/
theorem squeeze_apply {α : Type} (x : Arr.Idx → α) (h : Arr.ShapeCasts S64x512x512) (k : S64x512x512.Idx) (i : Arr.Idx)
    (e0 : (i 0).val = (k 0).val) (e1 : (i 2).val = (k 1).val) (e2 : (i 3).val = (k 2).val) :
    shapeCast S64x512x512 x h k = x i := by
  refine shapeCast_apply x h k i ?_
  have h1 : (i 1).val < 1 := (i 1).isLt
  rw [Shape.rowMajor_val_four, Shape.rowMajor_val_three]
  show (((i 0).val * 1 + (i 1).val) * 512 + (i 2).val) * 512 + (i 3).val = ((k 0).val * 512 + (k 1).val) * 512 + (k 2).val
  rw [e0, e1, e2]
  omega

set_option maxRecDepth 8192 in
set_option maxHeartbeats 4000000 in
/-- The logits as the region finds them: the first big argument, viewed without its unit axis. -/
theorem host_v6 (c : Dev nD) :
    (V m c main_v6 : S64x512x512.Idx → Elt F .f32)
      = shapeCast S64x512x512 (m ((c : Thread nD τ).loc main_arg4)) shapeCasts_S64x1x512x512_S64x512x512 := by
  show StableHlo.after (List.flatten [hostOps0, hostOps0_1, hostOps0_2, hostOps0_3]) (fun b => m (c, b)) (Proc.devRef .tc main_v6) = _
  simp only [hostOps0, hostOps0_1, hostOps0_2, hostOps0_3, List.flatten_cons, List.flatten_nil, List.append_nil, List.cons_append, List.nil_append]
  after_results_simp
  rfl

set_option maxRecDepth 8192 in
set_option maxHeartbeats 4000000 in
/-- The targets as the region finds them: the second big argument, viewed without its unit axis. -/
theorem host_v7 (c : Dev nD) :
    (V m c main_v7 : S64x512x512.Idx → Elt F .f32)
      = shapeCast S64x512x512 (m ((c : Thread nD τ).loc main_arg5)) shapeCasts_S64x1x512x512_S64x512x512 := by
  show StableHlo.after (List.flatten [hostOps0, hostOps0_1, hostOps0_2, hostOps0_3]) (fun b => m (c, b)) (Proc.devRef .tc main_v7) = _
  simp only [hostOps0, hostOps0_1, hostOps0_2, hostOps0_3, List.flatten_cons, List.flatten_nil, List.append_nil, List.cons_append, List.nil_append]
  after_results_simp
  rfl

/-- Both input windows' block index at point t is (t, 0, 0): decided once over the grid. -/
theorem idx_facts : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0) :=
  (by decide +kernel : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0))

/-- Entry j of the logits' block at point t is the first big argument's entry at batch row 4t + j₀. -/
theorem logits_block (c : Dev nD) (t : Fin cfg0.N) (j : S4x512x512.Idx) :
    (iblk m c 0 t : S4x512x512.Idx → Elt F .f32) j
      = m ((c : Thread nD τ).loc main_arg4) (blockEntry (t.cast N_0) j) := by
  obtain ⟨⟨h0, h1, h2⟩, -⟩ := idx_facts t
  unfold iblk
  rw [View.read_apply]
  show V m c main_v6 _ = _
  refine (congrFun (host_v6 m c) _).trans ?_
  refine squeeze_apply _ _ _ (blockEntry (t.cast N_0) j) ?_ ?_ ?_
  · show 4 * t.val + (j 0).val = win0_0.index t 0 * 4 + 1 * (j 0).val
    rw [h0]; omega
  · show (j 1).val = win0_0.index t 1 * 512 + 1 * (j 1).val
    rw [h1]; omega
  · show (j 2).val = win0_0.index t 2 * 512 + 1 * (j 2).val
    rw [h2]; omega

/-- Entry j of the targets' block at point t is the second big argument's entry at batch row 4t + j₀. -/
theorem targets_block (c : Dev nD) (t : Fin cfg0.N) (j : S4x512x512.Idx) :
    (iblk m c 1 t : S4x512x512.Idx → Elt F .f32) j
      = m ((c : Thread nD τ).loc main_arg5) (blockEntry (t.cast N_0) j) := by
  obtain ⟨-, ⟨h0, h1, h2⟩⟩ := idx_facts t
  unfold iblk
  rw [View.read_apply]
  show V m c main_v7 _ = _
  refine (congrFun (host_v7 m c) _).trans ?_
  refine squeeze_apply _ _ _ (blockEntry (t.cast N_0) j) ?_ ?_ ?_
  · show 4 * t.val + (j 0).val = win0_1.index t 0 * 4 + 1 * (j 0).val
    rw [h0]; omega
  · show (j 1).val = win0_1.index t 1 * 512 + 1 * (j 1).val
    rw [h1]; omega
  · show (j 2).val = win0_1.index t 2 * 512 + 1 * (j 2).val
    rw [h2]; omega

end Cert.KernelIdeal.BceValue

end
-- ==== Proof.SecondResult.lean ====
/-
  The two programs' second result is one extended real.

  One program sums the loss term over all 64 x 1 x 512 x 512 entries at once, starting from zero, and divides by 64.
  The other keeps a running sum over 16 grid points of the block sums of 4 x 512 x 512 entries, starting from zero,
  and divides its last value by the same constant. The sixteen blocks partition the batch axis, so the sum of the
  block sums is the sum over the whole array (BlockSums.sum_blocks): addition of extended reals is commutative and
  associative, and nothing else is used — in particular not that the summands are finite.
-/
import proofs.«140925_j7825430413956_1_alg».proof.Proof.RunningSum
import proofs.«140925_j7825430413956_1_alg».proof.Proof.FinalValue
import proofs.«140925_j7825430413956_1_alg».proof.Proof.BlockReads
import proofs.«140925_j7825430413956_1_alg».proof.Proof.Gen.ReferenceIdeal.Read

noncomputable section

open scoped BigOperators
open Idealize.ShloMosaic Idealize.ShloMosaic.TcCoe Idealize.SL.Sem Idealize.ShloMosaic.ValueIdx

namespace Cert.KernelIdeal.BceValue

open Cert.KernelIdeal Cert.KernelIdeal.Gen Cert.BlockSums

/-- The host program's per-entry value is the loss term of the two arguments' entries. -/
theorem host_term (x y : Arr.Idx → Ideal .f32) (j : Arr.Idx) :
    Cert.ReferenceIdeal.Read.val_main_v14 (F := Ideal) x y j = term (x j) (y j) := rfl

/-- The host program's second result: the total of the loss term over both arguments, divided by the constant 64. -/
theorem host_second (x y : Arr.Idx → Ideal .f32) (i : Cert.ReferenceIdeal.S_.Idx) :
    Cert.ReferenceIdeal.Read.val_main_v16 (F := Ideal) x y i
      = Ideal.div (∑ j : Arr.Idx, term (x j) (y j)) (Ideal.ofBits .f32 0x42800000#32) := by
  rw [Cert.ReferenceIdeal.Read.val_main_v16_apply, Cert.ReferenceIdeal.Read.val_main_v15_apply]
  show Ideal.div (Ideal.ofBits .f32 0x00000000#32 + ∑ j : Arr.Idx, Cert.ReferenceIdeal.Read.val_main_v14 (F := Ideal) x y j)
    (Ideal.ofBits .f32 0x42800000#32) = _
  rw [Ideal.ofBits_zero_f32, zero_add]
  congr 1

variable (m : (ℓ : Loc nD τ sig) → Buf (Elt Ideal) ℓ)

/-- The block sum of point t, over the argument arrays: the loss term at batch rows 4t, …, 4t + 3. -/
theorem point_sum_eq (c : Dev nD) (t : Fin cfg0.N) :
    pointSum m c t = ∑ j : Blk.Idx, term (m ((c : Thread nD τ).loc main_arg4) (blockEntry (t.cast N_0) j))
      (m ((c : Thread nD τ).loc main_arg5) (blockEntry (t.cast N_0) j)) := by
  unfold pointSum blockSum
  refine Finset.sum_congr rfl fun j _ => ?_
  exact congrArg₂ term (logits_block m c t j) (targets_block m c t j)

/-- The accumulator's last value is the total of the loss term over the two big arguments. -/
theorem last_acc_total (c : Dev nD) (k : S1x1.Idx) :
    lastAcc m c k = ∑ i : Arr.Idx, term (m ((c : Thread nD τ).loc main_arg4) i) (m ((c : Thread nD τ).loc main_arg5) i) := by
  refine (running_sum m c 15 (by rw [show cfg0.N = 16 from N_0]; decide) k).trans ?_
  rw [← sum_blocks (fun i => term (m ((c : Thread nD τ).loc main_arg4) i) (m ((c : Thread nD τ).loc main_arg5) i))]
  refine Finset.sum_congr rfl fun t _ => ?_
  exact point_sum_eq m c ⟨t.val, _⟩

/-- The kernel program's second result is the host program's. -/
theorem second_eq (c : Dev nD) :
    Host.divf (F := Ideal) (shapeCast S_ (lastAcc m c) shapeCasts_S1x1_S_) (constant (F := Ideal) S_ .f32 0x42800000#32)
      = (Cert.ReferenceIdeal.Read.val_main_v16 (F := Ideal) (m ((c : Thread nD τ).loc main_arg4))
          (m ((c : Thread nD τ).loc main_arg5)) : FVec Ideal S_ .f32) := by
  funext i
  rw [host_second]
  show Ideal.div (lastAcc m c (Shape.reshapeEquiv shapeCasts_S1x1_S_ i)) (Ideal.ofBits .f32 0x42800000#32) = _
  rw [last_acc_total]

end Cert.KernelIdeal.BceValue

end
-- ==== Proof.lean ====
/-
  A loss with three scalar results, computed twice: once with a tiled accelerator kernel for the middle result, once
  by array operations alone.

  * First result: the negated mean, over the batch of 64, of the log-softmax of the two class scores at the label.
    Both programs apply the same operations in the same order to the same arguments: one term.
  * Second result: the sum over all 64 x 1 x 512 x 512 entries of  max(x, 0) - x*y + log(1 + exp(-|x|)),  divided by 64.
    The kernel walks the batch axis in 16 blocks of 4 rows, keeps a one-entry running sum that it clears at the first
    block, and adds each block's sum to it; the array program sums everything at once. Over the extended reals the
    two are equal because the blocks partition the batch axis and addition is commutative and associative; 0 - |x| and
    -|x| are the same number. Finiteness of the inputs is never used.
  * Third result: the smooth-L1 term of the point distances, summed and divided by 64: again the same operations on
    the same arguments in both programs.

  The kernel program terminates without fault and leaves its arguments unchanged at both the word level and the
  idealized level (the generated frame of a kernel with two control cases: first block, later block); the array
  program likewise, by its generated run. Nothing was rewritten between the word-level and the idealized kernel, so
  there is nothing to preserve.
-/
import proofs.«140925_j7825430413956_1_alg».proof.Defs
import proofs.«140925_j7825430413956_1_alg».proof.Proof.Gen.Kernel
import proofs.«140925_j7825430413956_1_alg».proof.Proof.Gen.Kernel.Skeleton
import proofs.«140925_j7825430413956_1_alg».proof.Proof.Gen.Kernel.Launch
import proofs.«140925_j7825430413956_1_alg».proof.Proof.Gen.Kernel.Points
import proofs.«140925_j7825430413956_1_alg».proof.Proof.Gen.Kernel.Frame
import proofs.«140925_j7825430413956_1_alg».proof.Proof.Gen.KernelIdeal
import proofs.«140925_j7825430413956_1_alg».proof.Proof.Gen.KernelIdeal.Skeleton
import proofs.«140925_j7825430413956_1_alg».proof.Proof.Gen.KernelIdeal.Launch
import proofs.«140925_j7825430413956_1_alg».proof.Proof.Gen.KernelIdeal.Points
import proofs.«140925_j7825430413956_1_alg».proof.Proof.Gen.KernelIdeal.Frame
import proofs.«140925_j7825430413956_1_alg».proof.Proof.Gen.ReferenceIdeal
import proofs.«140925_j7825430413956_1_alg».proof.Proof.Gen.Pre_finite_inputs
import proofs.«140925_j7825430413956_1_alg».proof.Proof.Gen.ReferenceIdeal.Run
import proofs.«140925_j7825430413956_1_alg».proof.Proof.Gen.ReferenceIdeal.Read
import proofs.«140925_j7825430413956_1_alg».proof.Proof.KernelRun
import proofs.«140925_j7825430413956_1_alg».proof.Proof.SecondResult
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The array program runs and keeps its arguments: its run, with the three results forgotten. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the six arguments both programs end with the same three results: the first and the
    third are one term of the arguments in both, the second is the same total divided by the same constant. -/
theorem algebraic : Cert.algebraic_KernelIdeal_ReferenceIdeal := by
  intro m ρ m' ρ' _ hagree
  refine ⟨fun c => Cert.ReferenceIdeal.Read.val_main_v5 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v16 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v38 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun _ h c => ?_) (Cert.KernelIdeal.BceValue.run (F := Ideal) m ρ)
    exact ⟨(h c).1, (h c).2.1.trans (Cert.KernelIdeal.BceValue.second_eq m c), (h c).2.2.1, (h c).2.2.2⟩
  · refine (θ_run Cert.ReferenceIdeal.defs _ _).mono (fun _ h c => ?_) (Cert.ReferenceIdeal.Value.run (F := Ideal) m' ρ')
    obtain ⟨a0, a1, a2, a3, a4, a5⟩ := hagree c
    refine ⟨(h c).1.trans ((Cert.ReferenceIdeal.Read.val_main_v5_eq _ _).trans ?_),
      (h c).2.1.trans ((Cert.ReferenceIdeal.Read.val_main_v16_eq _ _).trans ?_),
      (h c).2.2.1.trans ((Cert.ReferenceIdeal.Read.val_main_v38_eq _ _).trans ?_), (h c).2.2.2⟩
    · rw [a0, a1]
    · rw [a4, a5]
    · rw [a2, a3]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
